-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S64x64 : Shape := ⟨2, ![64, 64]⟩
abbrev S1600000 : Shape := ⟨1, ![1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_

variable [Facts]

def fn {F : FTy → Type} [FloatOps F] (main_arg0 : FVec F S100000x64 .f32) (main_arg1 : FVec F S64x64 .f32) (main_arg2 : FVec F S64x64 .f32) (main_arg3 : IVec S1600000 32) (main_arg4 : IVec S1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  main_v13
-- ==== Kernel.lean ====
abbrev S100000x64 : Shape := ⟨2, ![100000, 64]⟩
abbrev S64x64 : Shape := ⟨2, ![64, 64]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S128x64 : Shape := ⟨2, ![128, 64]⟩
abbrev S4000x64 : Shape := ⟨2, ![4000, 64]⟩
abbrev S4000x1 : Shape := ⟨2, ![4000, 1]⟩
abbrev S4000x128 : Shape := ⟨2, ![4000, 128]⟩

abbrev nBuf : Space → Nat
  | .hbm => 27
  | .vmem => 9
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64x64, .f32⟩
  | .hbm, ⟨3, _⟩ => ⟨S1600000, .i32⟩
  | .hbm, ⟨4, _⟩ => ⟨S1600000, .i32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x64, .f32⟩
  | .hbm, ⟨14, _⟩ => ⟨S_, .f32⟩
  | .hbm, ⟨15, _⟩ => ⟨S100000x64, .f32⟩
  | .hbm, ⟨16, _⟩ => ⟨S1600000x1, .i32⟩
  | .hbm, ⟨17, _⟩ => ⟨S100000x64, .f32⟩
  | .hbm, ⟨18, _⟩ => ⟨S_, .f32⟩
  | .hbm, ⟨19, _⟩ => ⟨S1600000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S100000x1, .f32⟩
  | .hbm, ⟨25, _⟩ => ⟨S128x64, .f32⟩
  | .hbm, ⟨26, _⟩ => ⟨S100000x64, .f32⟩
  | .local _ .vmem, ⟨0, _⟩ => ⟨S4000x64, .f32⟩
  | .local _ .vmem, ⟨1, _⟩ => ⟨S4000x64, .f32⟩
  | .local _ .vmem, ⟨2, _⟩ => ⟨S4000x1, .f32⟩
  | .local _ .vmem, ⟨3, _⟩ => ⟨S4000x1, .f32⟩
  | .local _ .vmem, ⟨4, _⟩ => ⟨S4000x64, .f32⟩
  | .local _ .vmem, ⟨5, _⟩ => ⟨S4000x64, .f32⟩
  | .local _ .vmem, ⟨6, _⟩ => ⟨S128x64, .f32⟩
  | .local _ .vmem, ⟨7, _⟩ => ⟨S4000x64, .f32⟩
  | .local _ .vmem, ⟨8, _⟩ => ⟨S4000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  shapeCasts_S100000_S100000x1 : S100000.ShapeCasts S100000x1
  concatenates_S64x64_S64x64_S128x64_d0 : Shape.Concatenates [S64x64, S64x64] S128x64 0
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  broadcasts_S4000x1_S4000x64 : S4000x1.Broadcasts S4000x64
  concatenates_S4000x64_S4000x64_S4000x128_d1 : Shape.Concatenates [S4000x64, S4000x64] S4000x128 1
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S4000x128_S128x64_S4000x64_1_0_0_1_n_n_wf : DotDims.WF S4000x128 S128x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S100000x64.size a
  hwx0_2 : ∀ i : grid0.Coords, EltTy.bits .f32 = 32 ∨ (Rect.block (s := S100000x64) S4000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x64.size a ≤ S100000x64.size a
  hwx0_4 : ∀ i : grid0.Coords, EltTy.bits .f32 = 32 ∨ (Rect.block (s := S100000x64) S4000x64.size (cc0_transform_4 i) (hinb0_4 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf

abbrev win0_0 : Pipeline.Window sig grid0 :=
  Pipeline.Window.ofSpec (Memref.whole main_v9) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S4000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S4000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x64 : Shape := ⟨2, ![100000, 64]⟩
abbrev S64x64 : Shape := ⟨2, ![64, 64]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩

abbrev nBuf : Space → Nat
  | .hbm => 33
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64x64, .f32⟩
  | .hbm, ⟨3, _⟩ => ⟨S1600000, .i32⟩
  | .hbm, ⟨4, _⟩ => ⟨S1600000, .i32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x64, .f32⟩
  | .hbm, ⟨14, _⟩ => ⟨S_, .f32⟩
  | .hbm, ⟨15, _⟩ => ⟨S100000x64, .f32⟩
  | .hbm, ⟨16, _⟩ => ⟨S1600000x1, .i32⟩
  | .hbm, ⟨17, _⟩ => ⟨S100000x64, .f32⟩
  | .hbm, ⟨18, _⟩ => ⟨S_, .f32⟩
  | .hbm, ⟨19, _⟩ => ⟨S1600000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x64, .f32⟩
  | .hbm, ⟨29, _⟩ => ⟨S100000x64, .f32⟩
  | .hbm, ⟨30, _⟩ => ⟨S100000x64, .f32⟩
  | .hbm, ⟨31, _⟩ => ⟨S100000x64, .f32⟩
  | .hbm, ⟨32, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Spec.lean ====
/-
  One GraphSAGE layer with mean aggregation, stated entry by entry on the extended reals.

  From the node features `h` (100000 nodes, 64 features) and the edge list the host forms, for every node `r`,
  the sum `ns r` of the features of its in-neighbours and its in-degree `dg r`. The layer's output row is
      out r = (ns r / max (dg r) 1) · W_neigh + h r · W_self,
  two contractions over the 64 features. This module states that function over the literal extents; it opens
  neither program. The clamp's literal is kept as the word of 1.0 and is never evaluated: both programs carry the
  same word.
-/
import Idealize.ShloMosaic.PureOps.Ideal
import Idealize.ShloMosaic.Lib.ValueIdx

noncomputable section

namespace Cert.Sage

open Idealize.ShloMosaic Idealize.ShloMosaic.ValueIdx

/-- The value the in-degree is clamped from below with: the word of 1.0. -/
abbrev one : Ideal .f32 := Ideal.ofBits .f32 0x3F800000#32

/-- Feature `k` of the mean of node `r`'s in-neighbours: their summed feature over the degree, the degree
    clamped to at least one so that an isolated node divides its zero sum by one. -/
def mean (ns : FVec Ideal ⟨2, ![100000, 64]⟩ .f32) (dg : FVec Ideal ⟨1, ![100000]⟩ .f32)
    (r : Fin 100000) (k : Fin 64) : EReal :=
  Ideal.div (ns (ix2 r k)) (max (dg (ix1 r)) one)

/-- Entry `(r, c)` of the layer's output: the mean row against column `c` of `W_neigh` plus the node's own row
    against column `c` of `W_self`. -/
def outAt (ns : FVec Ideal ⟨2, ![100000, 64]⟩ .f32) (dg : FVec Ideal ⟨1, ![100000]⟩ .f32)
    (h : FVec Ideal ⟨2, ![100000, 64]⟩ .f32) (wn ws : FVec Ideal ⟨2, ![64, 64]⟩ .f32)
    (r : Fin 100000) (c : Fin 64) : EReal :=
  (∑ k : Fin 64, mean ns dg r k * wn (ix2 k c)) + ∑ k : Fin 64, h (ix2 r k) * ws (ix2 k c)

/-- The layer's output as one array. -/
def out (ns : FVec Ideal ⟨2, ![100000, 64]⟩ .f32) (dg : FVec Ideal ⟨1, ![100000]⟩ .f32)
    (h : FVec Ideal ⟨2, ![100000, 64]⟩ .f32) (wn ws : FVec Ideal ⟨2, ![64, 64]⟩ .f32) :
    FVec Ideal ⟨2, ![100000, 64]⟩ .f32 :=
  fun i => outAt ns dg h wn ws (i 0) (i 1)

theorem out_ix2 (ns : FVec Ideal ⟨2, ![100000, 64]⟩ .f32) (dg : FVec Ideal ⟨1, ![100000]⟩ .f32)
    (h : FVec Ideal ⟨2, ![100000, 64]⟩ .f32) (wn ws : FVec Ideal ⟨2, ![64, 64]⟩ .f32)
    (r : Fin 100000) (c : Fin 64) : out ns dg h wn ws (ix2 r c) = outAt ns dg h wn ws r c := rfl

/-- A contraction over the 128 stacked features splits at 64 into the contraction over the first half and the
    contraction over the second: sums on the extended reals are commutative and associative, which is all this
    takes. -/
theorem sum_stacked (f : Fin 128 → EReal) :
    ∑ k : Fin 128, f k = (∑ k : Fin 64, f (Fin.castAdd 64 k)) + ∑ k : Fin 64, f (Fin.natAdd 64 k) :=
  Fin.sum_univ_add (M := EReal) (a := 64) (b := 64) f

end Cert.Sage

end
-- ==== Proof.LibColumn.lean ====
/-
  Rank-2 "keepdims" forms read at an index given by coordinates, for any extents a × b:
  a vector [a] cast to a column [a, 1] (`shapeCast_a_a1_apply`), a column [a, 1] broadcast across b lanes
  (`broadcastTo_a1_ab_apply`), and the sum of a matrix along its last axis, on the extended reals, as a sum over
  the lane coordinate (`sum_last_apply`). Together with the row forms [a] → [1, a] → [b, a] of the layout library
  they read `sum(x·x, axis=-1, keepdims=True)`-style expressions entry by entry.
-/
import Idealize.ShloMosaic.Lib.ValueLayout
import Idealize.ShloMosaic.PureOps.Ideal.Laws

noncomputable section

namespace Cert.LibColumn

open Idealize.ShloMosaic Idealize.ShloMosaic.ValueIdx

variable {α : Type}

/-- An `[a]` array cast to `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an `[a, b]` matrix along its last axis, read at row `p` on the extended reals, is the sum over the
    lane coordinate of that row's entries (the accumulator word is the neutral one, zero). -/
theorem sum_last_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ x 0x00000000#32 h hφ hacc (ix1 p) = ∑ d : Fin b, x (ix2 p d) := by
  refine (Ideal.multiReduction_add_single x 0x00000000#32 h hφ hacc (ix1 p)).trans ?_
  show ∑ d : Fin b, x (h.lift (ix1 p) d) = ∑ d : Fin b, x (ix2 p d)
  refine Finset.sum_congr rfl fun d _ => congrArg x (funext fun c => Fin.ext ?_)
  match c with
  | ⟨0, _⟩ => rfl
  | ⟨1, _⟩ => rfl

end Cert.LibColumn

end
-- ==== Proof.LibStack.lean ====
/-
  Two matrices joined into one, read at an entry given by its coordinates, for any extents.

  Side by side (`[a, b₁]` and `[a, b₂]` joined along the last axis into `[a, t]`): a column below `b₁` reads the left
  matrix at that column, a column `b₁ + k` reads the right matrix at column `k` (`beside_left`, `beside_right`).
  One above the other (`[a₁, b]` and `[a₂, b]` joined along the first axis into `[t, b]`): a row below `a₁` reads the
  upper matrix, a row `a₁ + k` the lower one at row `k` (`above_top`, `above_bottom`).
  The joined extent `t` and the coordinate in it are separate variables tied by an equation between naturals, so the
  lemmas apply to a literal extent such as 128 with pieces of 64 without any arithmetic in a type.
-/
import Idealize.ShloMosaic.Lib.Pipeline.Value
import Idealize.ShloMosaic.Lib.ValueIdx

noncomputable section

namespace Cert.LibStack

open Idealize.ShloMosaic Idealize.ShloMosaic.ValueIdx

variable {α : Type}

/-- Side by side, a column among the first `b₁`: the left matrix at the same row and column. -/
theorem beside_left {a b₁ b₂ t : ℕ} (x : (⟨2, ![a, b₁]⟩ : Shape).Idx → α) (y : (⟨2, ![a, b₂]⟩ : Shape).Idx → α)
    (h : Shape.Concatenates [(⟨2, ![a, b₁]⟩ : Shape), ⟨2, ![a, b₂]⟩] ⟨2, ![a, t]⟩ 1)
    (p : Fin a) (k : Fin b₁) (k' : Fin t) (hk : k'.val = k.val) :
    concatenate ⟨2, ![a, t]⟩ 1 [⟨⟨2, ![a, b₁]⟩, x⟩, ⟨⟨2, ![a, b₂]⟩, y⟩] h (ix2 p k') = x (ix2 p k) :=
  concatenate_pair_apply_left 1 x y h (ix2 p k') rfl (ix2 p k) fun b => by
    match b with
    | ⟨0, _⟩ => rfl
    | ⟨1, _⟩ => exact hk.symm

/-- Side by side, column `b₁ + k`: the right matrix at the same row and column `k`. -/
theorem beside_right {a b₁ b₂ t : ℕ} (x : (⟨2, ![a, b₁]⟩ : Shape).Idx → α) (y : (⟨2, ![a, b₂]⟩ : Shape).Idx → α)
    (h : Shape.Concatenates [(⟨2, ![a, b₁]⟩ : Shape), ⟨2, ![a, b₂]⟩] ⟨2, ![a, t]⟩ 1)
    (p : Fin a) (k : Fin b₂) (k' : Fin t) (hk : k'.val = k.val + b₁) :
    concatenate ⟨2, ![a, t]⟩ 1 [⟨⟨2, ![a, b₁]⟩, x⟩, ⟨⟨2, ![a, b₂]⟩, y⟩] h (ix2 p k') = y (ix2 p k) :=
  concatenate_pair_apply_right 1 x y h (ix2 p k') rfl rfl (ix2 p k)
    (fun b hb => by
      match b with
      | ⟨0, _⟩ => rfl
      | ⟨1, _⟩ => exact absurd rfl hb)
    (by show k.val + b₁ = k'.val; exact hk.symm)

/-- One above the other, a row among the first `a₁`: the upper matrix at the same row and column. -/
theorem above_top {a₁ a₂ b t : ℕ} (x : (⟨2, ![a₁, b]⟩ : Shape).Idx → α) (y : (⟨2, ![a₂, b]⟩ : Shape).Idx → α)
    (h : Shape.Concatenates [(⟨2, ![a₁, b]⟩ : Shape), ⟨2, ![a₂, b]⟩] ⟨2, ![t, b]⟩ 0)
    (k : Fin a₁) (k' : Fin t) (q : Fin b) (hk : k'.val = k.val) :
    concatenate ⟨2, ![t, b]⟩ 0 [⟨⟨2, ![a₁, b]⟩, x⟩, ⟨⟨2, ![a₂, b]⟩, y⟩] h (ix2 k' q) = x (ix2 k q) :=
  concatenate_pair_apply_left 0 x y h (ix2 k' q) rfl (ix2 k q) fun b => by
    match b with
    | ⟨0, _⟩ => exact hk.symm
    | ⟨1, _⟩ => rfl

/-- One above the other, row `a₁ + k`: the lower matrix at row `k` and the same column. -/
theorem above_bottom {a₁ a₂ b t : ℕ} (x : (⟨2, ![a₁, b]⟩ : Shape).Idx → α) (y : (⟨2, ![a₂, b]⟩ : Shape).Idx → α)
    (h : Shape.Concatenates [(⟨2, ![a₁, b]⟩ : Shape), ⟨2, ![a₂, b]⟩] ⟨2, ![t, b]⟩ 0)
    (k : Fin a₂) (k' : Fin t) (q : Fin b) (hk : k'.val = k.val + a₁) :
    concatenate ⟨2, ![t, b]⟩ 0 [⟨⟨2, ![a₁, b]⟩, x⟩, ⟨⟨2, ![a₂, b]⟩, y⟩] h (ix2 k' q) = y (ix2 k q) :=
  concatenate_pair_apply_right 0 x y h (ix2 k' q) rfl rfl (ix2 k q)
    (fun b hb => by
      match b with
      | ⟨0, _⟩ => exact absurd rfl hb
      | ⟨1, _⟩ => rfl)
    (by show k.val + a₁ = k'.val; exact hk.symm)

end Cert.LibStack

end
-- ==== Proof.Payload.lean ====
/-
  What the kernel body stores, entry by entry.

  The body receives a block of 4000 rows: the rows' neighbour sums `ns` (4000 × 64), their degrees as a column `dg`
  (4000 × 1), their own features `h` (4000 × 64), and the stacked weights `w` (128 × 64, `W_neigh` above `W_self`).
  It lays the mean `ns / max dg 1` and `h` side by side into a 4000 × 128 matrix and multiplies by `w` into a zero
  accumulator. At entry `(p, q)` the product is a sum over 128 stacked features; split at 64, its first half runs
  over the mean against the upper 64 rows of `w` and its second over `h` against the lower 64 rows. Rounding the
  operands to bf16 is the identity on the extended reals.
-/
import proofs.«133493_j51745765982698_1_alg».proof.Proof.Gen.KernelIdeal.Skeleton
import proofs.«133493_j51745765982698_1_alg».proof.Proof.Spec
import proofs.«133493_j51745765982698_1_alg».proof.Proof.LibColumn
import proofs.«133493_j51745765982698_1_alg».proof.Proof.LibStack
import Idealize.ShloMosaic.Lib.Pipeline.Value
import Idealize.ShloMosaic.Lib.ValueIdx
import Idealize.ShloMosaic.PureOps.Ideal.Laws

noncomputable section

namespace Cert.Sage.Body

open Idealize.ShloMosaic Idealize.ShloMosaic.ValueIdx Cert.KernelIdeal Cert.KernelIdeal.Gen

theorem lhs_row (i : S4000x64.Idx) (z : dot_S4000x128_S128x64_S4000x64_1_0_0_1_n_n.contr.Idx) :
    (dot_S4000x128_S128x64_S4000x64_1_0_0_1_n_n.lhsIdx i z 0).val = (i 0).val := by
  unfold DotDims.lhsIdx
  rw [dif_neg (show ¬(0 : Fin S4000x128.rank) ∈ dot_S4000x128_S128x64_S4000x64_1_0_0_1_n_n.lhsBatch by decide),
    dif_pos (show (0 : Fin S4000x128.rank) ∈ dot_S4000x128_S128x64_S4000x64_1_0_0_1_n_n.lhsNonContracting by decide)]
  rfl

theorem rhs_col (i : S4000x64.Idx) (z : dot_S4000x128_S128x64_S4000x64_1_0_0_1_n_n.contr.Idx) :
    (dot_S4000x128_S128x64_S4000x64_1_0_0_1_n_n.rhsIdx i z 1).val = (i 1).val := by
  unfold DotDims.rhsIdx
  rw [dif_neg (show ¬(1 : Fin S128x64.rank) ∈ dot_S4000x128_S128x64_S4000x64_1_0_0_1_n_n.rhsBatch by decide),
    dif_pos (show (1 : Fin S128x64.rank) ∈ dot_S4000x128_S128x64_S4000x64_1_0_0_1_n_n.rhsNonContracting by decide)]
  rfl

/-- The block product into a zero accumulator, at entry `(p, q)`: the sum over the 128 stacked features of the left
    operand's row `p` against the right operand's column `q`. -/
theorem matmul_at (l : FVec Ideal S4000x128 .bf16) (r : FVec Ideal S128x64 .bf16) (p : Fin 4000) (q : Fin 64) :
    matmul dot_S4000x128_S128x64_S4000x64_1_0_0_1_n_n none l r (constant S4000x64 .f32 0x00000000#32) (ix2 p q)
      = ∑ k : Fin 128, l (ix2 p k) * r (ix2 k q) := by
  simp only [matmul]
  rw [Ideal.matmul_constant_zero_apply,
    ← Equiv.sum_comp (contrEquiv1 dot_S4000x128_S128x64_S4000x64_1_0_0_1_n_n 128 rfl rfl).symm]
  refine Finset.sum_congr rfl fun k _ => ?_
  have hk := contrEquiv1_symm_val dot_S4000x128_S128x64_S4000x64_1_0_0_1_n_n 128 rfl rfl k
  have el : dot_S4000x128_S128x64_S4000x64_1_0_0_1_n_n.lhsIdx (ix2 p q)
      ((contrEquiv1 dot_S4000x128_S128x64_S4000x64_1_0_0_1_n_n 128 rfl rfl).symm k) = ix2 p k :=
    funext fun a => Fin.ext (by
      match a with
      | ⟨0, _⟩ => exact lhs_row _ _
      | ⟨1, _⟩ => exact (dot_S4000x128_S128x64_S4000x64_1_0_0_1_n_n.lhsIdx_val_of_single rfl _ _).trans hk)
  have er : dot_S4000x128_S128x64_S4000x64_1_0_0_1_n_n.rhsIdx (ix2 p q)
      ((contrEquiv1 dot_S4000x128_S128x64_S4000x64_1_0_0_1_n_n 128 rfl rfl).symm k) = ix2 k q :=
    funext fun a => Fin.ext (by
      match a with
      | ⟨0, _⟩ => exact (dot_S4000x128_S128x64_S4000x64_1_0_0_1_n_n.rhsIdx_val_of_single rfl _ _).trans hk
      | ⟨1, _⟩ => exact rhs_col _ _)
  rw [el, er]

/-- The mean block at entry `(p, k)`: the neighbour sum over the row's degree clamped to at least one. -/
theorem mean_at (dg : Vec Ideal S4000x1 .f32) (ns : Vec Ideal S4000x64 .f32) (p : Fin 4000) (k : Fin 64) :
    divf (shapeCast S4000x64 ns shapeCasts_S4000x64_S4000x64)
        (broadcastTo S4000x64
          (maximumf (shapeCast S4000x1 dg shapeCasts_S4000x1_S4000x1) (broadcast S4000x1 (Scalar.ofBits (F := Ideal) .f32 0x3F800000#32)))
          broadcasts_S4000x1_S4000x64) (ix2 p k)
      = Ideal.div (ns (ix2 p k)) (max (dg (ix2 p (0 : Fin 1))) Cert.Sage.one) := by
  rw [divf_apply, shapeCast_self, Cert.LibColumn.broadcastTo_a1_ab_apply, maximumf_apply, shapeCast_self]
  rfl

/-- The stored block at entry `(p, q)`: the mean row against the upper half of the stacked weights plus the row's
    own features against the lower half. -/
theorem pay_at (dg : Vec Ideal S4000x1 .f32) (ns h : Vec Ideal S4000x64 .f32) (w : Vec Ideal S128x64 .f32)
    (p : Fin 4000) (q : Fin 64) :
    k0_pay1 (F := Ideal) dg ns h w (ix2 p q)
      = (∑ k : Fin 64, Ideal.div (ns (ix2 p k)) (max (dg (ix2 p (0 : Fin 1))) Cert.Sage.one) * w (ix2 (Fin.castAdd 64 k) q))
        + ∑ k : Fin 64, h (ix2 p k) * w (ix2 (Fin.natAdd 64 k) q) := by
  unfold k0_pay1
  refine (matmul_at _ _ p q).trans ?_
  refine (Cert.Sage.sum_stacked _).trans ?_
  refine congrArg₂ (· + ·) (Finset.sum_congr rfl fun k _ => ?_) (Finset.sum_congr rfl fun k _ => ?_)
  · refine congrArg₂ (· * ·) ?_ ?_
    · refine (Cert.LibStack.beside_left _ _ concatenates_S4000x64_S4000x64_S4000x128_d1 p k (Fin.castAdd 64 k) rfl).trans ?_
      exact mean_at dg ns p k
    · exact congrFun (shapeCast_self w shapeCasts_S128x64_S128x64) _
  · refine congrArg₂ (· * ·) ?_ ?_
    · exact Cert.LibStack.beside_right _ _ concatenates_S4000x64_S4000x64_S4000x128_d1 p k (Fin.natAdd 64 k)
        (by show 64 + k.val = k.val + 64; omega)
    · exact congrFun (shapeCast_self w shapeCasts_S128x64_S128x64) _

/-- One grid point's stored entry is the layer's output there: if the point's blocks are the rows of the whole
    arrays that entry `(r, c)` depends on — row `r` of the neighbour sums and of `h`, the degree of `r`, column `c`
    of the two weight matrices as the upper and lower halves of the stacked block — then the stored entry `(p, q)`
    is `Sage.out` at `(r, c)`. -/
theorem point_eq (dg : Vec Ideal S4000x1 .f32) (ns h : Vec Ideal S4000x64 .f32) (w : Vec Ideal S128x64 .f32)
    (NS H : FVec Ideal ⟨2, ![100000, 64]⟩ .f32) (DG : FVec Ideal ⟨1, ![100000]⟩ .f32) (WN WS : FVec Ideal ⟨2, ![64, 64]⟩ .f32)
    (p : Fin 4000) (q : Fin 64) (r : Fin 100000) (c : Fin 64)
    (hns : ∀ k : Fin 64, ns (ix2 p k) = NS (ix2 r k)) (hh : ∀ k : Fin 64, h (ix2 p k) = H (ix2 r k))
    (hdg : dg (ix2 p (0 : Fin 1)) = DG (ix1 r))
    (hwn : ∀ k : Fin 64, w (ix2 (Fin.castAdd 64 k) q) = WN (ix2 k c))
    (hws : ∀ k : Fin 64, w (ix2 (Fin.natAdd 64 k) q) = WS (ix2 k c)) :
    k0_pay1 (F := Ideal) dg ns h w (ix2 p q) = Cert.Sage.out NS DG H WN WS (ix2 r c) := by
  rw [pay_at, Cert.Sage.out_ix2]
  unfold Cert.Sage.outAt Cert.Sage.mean
  refine congrArg₂ (· + ·) (Finset.sum_congr rfl fun k _ => ?_) (Finset.sum_congr rfl fun k _ => ?_)
  · rw [hns k, hdg, hwn k]
  · rw [hh k, hws k]

end Cert.Sage.Body

end
-- ==== Proof.HostSide.lean ====
/-
  What the region finds in the three arrays the host writes before it.

  Before the region the host gathers `h` along the edges' sources and scatter-adds the gathered rows at the edges'
  destinations (the neighbour sums), scatter-adds ones at the destinations (the degrees) and casts that vector to
  a column, and lays `W_neigh` above `W_self`. The gather and the scatter-adds are named here as two functions of
  the argument arrays and never opened; the column and the stacked weights are read at coordinates.
-/
import proofs.«133493_j51745765982698_1_alg».proof.Proof.Gen.KernelIdeal.Frame
import proofs.«133493_j51745765982698_1_alg».proof.Proof.LibColumn
import proofs.«133493_j51745765982698_1_alg».proof.Proof.LibStack
import Idealize.ShloMosaic.Lib.StableHlo.Run
import Idealize.ShloMosaic.PureOps.Ideal

noncomputable section

namespace Cert.Sage.Host

open Idealize.ShloMosaic Idealize.ShloMosaic.TcCoe Idealize.SL.Sem Idealize.ShloMosaic.StableHlo
open Idealize.ShloMosaic.ValueIdx Cert.KernelIdeal Cert.KernelIdeal.Gen

/-- The neighbour sums: `h` gathered at every edge's source (a negative source index first shifted by the node
    count, as the host does), the gathered rows added up at the edge's destination, from zero. -/
def nsum (x0 : (⟨S100000x64, .f32⟩ : BufTy).Contents (Elt Ideal)) (x3 x4 : (⟨S1600000, .i32⟩ : BufTy).Contents (Elt Ideal)) :
    (⟨S100000x64, .f32⟩ : BufTy).Contents (Elt Ideal) :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 x4)
    (Host.gather gather_S100000x64_S1600000x1_S1600000x64_1_0_n_n_0_1_164 x0
      (broadcastInDim S1600000x1 ![0] bcast_S1600000_S1600000x1_0
        (select (cmpi .slt x3 (broadcastInDim S1600000 ![] bcast_S_S1600000 (constantI S_ 32 0#32)))
          (addi x3 (broadcastInDim S1600000 ![] bcast_S_S1600000 (constantI S_ 32 100000#32))) x3)))

/-- The in-degrees: a one added up at every edge's destination, from zero. -/
def degs (x4 : (⟨S1600000, .i32⟩ : BufTy).Contents (Elt Ideal)) : (⟨S100000, .f32⟩ : BufTy).Contents (Elt Ideal) :=
  Host.scatterAdd scatter_S100000_S1600000x1_S1600000_n_0_0_1
    (broadcastInDim S100000 ![] bcast_S_S100000 (constant (F := Ideal) S_ .f32 0x00000000#32))
    (broadcastInDim S1600000x1 ![0] bcast_S1600000_S1600000x1_0 x4)
    (broadcastInDim S1600000 ![] bcast_S_S1600000 (constant (F := Ideal) S_ .f32 0x3F800000#32))

variable (m : (ℓ : Loc nD τ sig) → Buf (Elt Ideal) ℓ)

/-- The region's first operand is the neighbour sums of the argument arrays. -/
theorem V_nsum (c : Dev nD) : (V m c main_v9 : S100000x64.Idx → Ideal .f32)
    = nsum (m ((c : Thread nD τ).loc main_arg0)) (m ((c : Thread nD τ).loc main_arg3)) (m ((c : Thread nD τ).loc main_arg4)) := by
  unfold nsum
  dsimp only [Gen.V, Gen.hostOps0]
  after_results

/-- The region's second operand is the degrees as a column. -/
theorem V_degcol (c : Dev nD) : (V m c main_v14 : S100000x1.Idx → Ideal .f32)
    = shapeCast S100000x1 (degs (m ((c : Thread nD τ).loc main_arg4))) shapeCasts_S100000_S100000x1 := by
  unfold degs
  dsimp only [Gen.V, Gen.hostOps0]
  after_results
  rfl

/-- The region's fourth operand is `W_neigh` above `W_self`. -/
theorem V_wcat (c : Dev nD) : (V m c main_v15 : S128x64.Idx → Ideal .f32)
    = concatenate S128x64 0 [⟨S64x64, m ((c : Thread nD τ).loc main_arg1)⟩, ⟨S64x64, m ((c : Thread nD τ).loc main_arg2)⟩]
        concatenates_S64x64_S64x64_S128x64_d0 := by
  dsimp only [Gen.V, Gen.hostOps0]
  after_results

/-- The degree column at row `r` is the degree of node `r`. -/
theorem degcol_at (c : Dev nD) (r : Fin 100000) :
    (V m c main_v14 : S100000x1.Idx → Ideal .f32) (ix2 r (0 : Fin 1)) = degs (m ((c : Thread nD τ).loc main_arg4)) (ix1 r) := by
  rw [V_degcol]
  exact Cert.LibColumn.shapeCast_a_a1_apply _ _ r 0

/-- Row `k` of the stacked weights is row `k` of `W_neigh`. -/
theorem wcat_top (c : Dev nD) (k q : Fin 64) :
    (V m c main_v15 : S128x64.Idx → Ideal .f32) (ix2 (Fin.castAdd 64 k) q) = m ((c : Thread nD τ).loc main_arg1) (ix2 k q) := by
  rw [V_wcat]
  exact Cert.LibStack.above_top _ _ _ k (Fin.castAdd 64 k) q rfl

/-- Row `64 + k` of the stacked weights is row `k` of `W_self`. -/
theorem wcat_bottom (c : Dev nD) (k q : Fin 64) :
    (V m c main_v15 : S128x64.Idx → Ideal .f32) (ix2 (Fin.natAdd 64 k) q) = m ((c : Thread nD τ).loc main_arg2) (ix2 k q) := by
  rw [V_wcat]
  exact Cert.LibStack.above_bottom _ _ _ k (Fin.natAdd 64 k) q (by show 64 + k.val = k.val + 64; omega)

end Cert.Sage.Host

end
-- ==== Proof.Blocks.lean ====
import proofs.«133493_j51745765982698_1_alg».proof.Proof.Gen.KernelIdeal.Value
import proofs.«133493_j51745765982698_1_alg».proof.Proof.Payload
import proofs.«133493_j51745765982698_1_alg».proof.Proof.HostSide
import Idealize.ShloMosaic.Lib.Pipeline.Value

noncomputable section

namespace Cert.Sage.Blocks

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value

variable (m : (ℓ : Loc nD τ sig) → Buf (Elt Ideal) ℓ) (ρ : Dev nD → PrngReg)

theorem hz : (![0, 0] : Fin 2 → Nat) = fun _ => 0 := funext fun a => by fin_cases a <;> rfl

/-- The windows' block indices, decided over the 25 grid points: the three row-banded inputs and the output sit at
    band `t`, column block 0; the stacked weights always at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The layer's output of the argument arrays: what the result array ends holding. -/
abbrev result (c : Dev nD) : Buf (Elt Ideal) ((c : Thread nD τ).loc main_v16) :=
  Cert.Sage.out (Cert.Sage.Host.nsum (m ((c : Thread nD τ).loc main_arg0)) (m ((c : Thread nD τ).loc main_arg3)) (m ((c : Thread nD τ).loc main_arg4))) (Cert.Sage.Host.degs (m ((c : Thread nD τ).loc main_arg4))) (m ((c : Thread nD τ).loc main_arg0)) (m ((c : Thread nD τ).loc main_arg1)) (m ((c : Thread nD τ).loc main_arg2))

/-- Entry `(p, k)` of row band `t` of a 100000 × 64 array (the first operand's) is its entry `(4000 t + p, k)`. -/
theorem read0 (c : Dev nD) (A : Buf (Elt Ideal) ((c : Thread nD τ).loc (Pipeline.arrRef spec0 0))) (t : Fin cfg0.N)
    (p : Fin 4000) (k : Fin 64) (r : Fin 100000) (hr : r.val = t.val * 4000 + p.val) :
    ((cfg0.win 0).blk t).view.read (Elt Ideal) A (ix2 p k) = (A : S100000x64.Idx → Ideal .f32) (ix2 r k) := by
  obtain ⟨e0, e1, -⟩ := idx_facts t
  rw [View.read_apply]
  refine congrArg (A : S100000x64.Idx → Ideal .f32) (funext fun a => Fin.ext ?_)
  match a with
  | ⟨0, _⟩ => show win0_0.index t (0 : Fin 2) * 4000 + 1 * p.val = r.val; rw [e0, hr]; omega
  | ⟨1, _⟩ => show win0_0.index t (1 : Fin 2) * 64 + 1 * k.val = k.val; rw [e1]; omega

/-- Entry `p` of row band `t` of a 100000 × 1 column is its entry `4000 t + p`. -/
theorem read1 (c : Dev nD) (A : Buf (Elt Ideal) ((c : Thread nD τ).loc (Pipeline.arrRef spec0 1))) (t : Fin cfg0.N)
    (p : Fin 4000) (r : Fin 100000) (hr : r.val = t.val * 4000 + p.val) :
    ((cfg0.win 1).blk t).view.read (Elt Ideal) A (ix2 p (0 : Fin 1)) = (A : S100000x1.Idx → Ideal .f32) (ix2 r (0 : Fin 1)) := by
  obtain ⟨-, -, e0, e1, -⟩ := idx_facts t
  rw [View.read_apply]
  refine congrArg (A : S100000x1.Idx → Ideal .f32) (funext fun a => Fin.ext ?_)
  match a with
  | ⟨0, _⟩ => show win0_1.index t (0 : Fin 2) * 4000 + 1 * p.val = r.val; rw [e0, hr]; omega
  | ⟨1, _⟩ => show win0_1.index t (1 : Fin 2) * 1 + 1 * 0 = 0; rw [e1]

/-- Entry `(p, k)` of row band `t` of a 100000 × 64 array (the third operand's) is its entry `(4000 t + p, k)`. -/
theorem read2 (c : Dev nD) (A : Buf (Elt Ideal) ((c : Thread nD τ).loc (Pipeline.arrRef spec0 2))) (t : Fin cfg0.N)
    (p : Fin 4000) (k : Fin 64) (r : Fin 100000) (hr : r.val = t.val * 4000 + p.val) :
    ((cfg0.win 2).blk t).view.read (Elt Ideal) A (ix2 p k) = (A : S100000x64.Idx → Ideal .f32) (ix2 r k) := by
  obtain ⟨-, -, -, -, e0, e1, -⟩ := idx_facts t
  rw [View.read_apply]
  refine congrArg (A : S100000x64.Idx → Ideal .f32) (funext fun a => Fin.ext ?_)
  match a with
  | ⟨0, _⟩ => show win0_2.index t (0 : Fin 2) * 4000 + 1 * p.val = r.val; rw [e0, hr]; omega
  | ⟨1, _⟩ => show win0_2.index t (1 : Fin 2) * 64 + 1 * k.val = k.val; rw [e1]; omega

/-- The fourth operand's one block is the whole 128 × 64 array at every point. -/
theorem read3 (c : Dev nD) (A : Buf (Elt Ideal) ((c : Thread nD τ).loc (Pipeline.arrRef spec0 3))) (t : Fin cfg0.N)
    (k : Fin 128) (q : Fin 64) :
    ((cfg0.win 3).blk t).view.read (Elt Ideal) A (ix2 k q) = (A : S128x64.Idx → Ideal .f32) (ix2 k q) := by
  obtain ⟨-, -, -, -, -, -, e0, e1, -⟩ := idx_facts t
  rw [View.read_apply]
  refine congrArg (A : S128x64.Idx → Ideal .f32) (funext fun a => Fin.ext ?_)
  match a with
  | ⟨0, _⟩ => show win0_3.index t (0 : Fin 2) * 128 + 1 * k.val = k.val; rw [e0]; omega
  | ⟨1, _⟩ => show win0_3.index t (1 : Fin 2) * 64 + 1 * q.val = q.val; rw [e1]; omega

/-- Row `p` of point `t`'s neighbour-sum block is row `4000 t + p` of the neighbour sums. -/
theorem blk_nsum (c : Dev nD) (t : Fin cfg0.N) (p : Fin 4000) (k : Fin 64) (r : Fin 100000) (hr : r.val = t.val * 4000 + p.val) :
    (iblk m c 0 t : Vec Ideal S4000x64 .f32) (ix2 p k) = (Cert.Sage.Host.nsum (m ((c : Thread nD τ).loc main_arg0)) (m ((c : Thread nD τ).loc main_arg3)) (m ((c : Thread nD τ).loc main_arg4))) (ix2 r k) := by
  have hA : (V m c (Pipeline.arrRef spec0 0) : S100000x64.Idx → Ideal .f32) = (Cert.Sage.Host.nsum (m ((c : Thread nD τ).loc main_arg0)) (m ((c : Thread nD τ).loc main_arg3)) (m ((c : Thread nD τ).loc main_arg4))) := Cert.Sage.Host.V_nsum m c
  unfold iblk
  rw [hA]
  exact read0 c _ t p k r hr

/-- Row `p` of point `t`'s degree block is the degree of node `4000 t + p`. -/
theorem blk_deg (c : Dev nD) (t : Fin cfg0.N) (p : Fin 4000) (r : Fin 100000) (hr : r.val = t.val * 4000 + p.val) :
    (iblk m c 1 t : Vec Ideal S4000x1 .f32) (ix2 p (0 : Fin 1)) = (Cert.Sage.Host.degs (m ((c : Thread nD τ).loc main_arg4))) (ix1 r) := by
  refine Eq.trans ?_ (Cert.Sage.Host.degcol_at m c r)
  unfold iblk
  exact read1 c _ t p r hr

/-- Row `p` of point `t`'s feature block is row `4000 t + p` of `h`. -/
theorem blk_h (c : Dev nD) (t : Fin cfg0.N) (p : Fin 4000) (k : Fin 64) (r : Fin 100000) (hr : r.val = t.val * 4000 + p.val) :
    (iblk m c 2 t : Vec Ideal S4000x64 .f32) (ix2 p k) = (m ((c : Thread nD τ).loc main_arg0)) (ix2 r k) := by
  have hA : (V m c (Pipeline.arrRef spec0 2) : S100000x64.Idx → Ideal .f32) = (m ((c : Thread nD τ).loc main_arg0)) := V_main_arg0 m c
  unfold iblk
  rw [hA]
  exact read2 c _ t p k r hr

/-- Every point's weight block is the whole stacked matrix: its upper half is `W_neigh`. -/
theorem blk_wtop (c : Dev nD) (t : Fin cfg0.N) (k q : Fin 64) :
    (iblk m c 3 t : Vec Ideal S128x64 .f32) (ix2 (Fin.castAdd 64 k) q) = (m ((c : Thread nD τ).loc main_arg1)) (ix2 k q) := by
  refine Eq.trans ?_ (Cert.Sage.Host.wcat_top m c k q)
  unfold iblk
  exact read3 c _ t (Fin.castAdd 64 k) q

/-- … and its lower half is `W_self`. -/
theorem blk_wbot (c : Dev nD) (t : Fin cfg0.N) (k q : Fin 64) :
    (iblk m c 3 t : Vec Ideal S128x64 .f32) (ix2 (Fin.natAdd 64 k) q) = (m ((c : Thread nD τ).loc main_arg2)) (ix2 k q) := by
  refine Eq.trans ?_ (Cert.Sage.Host.wcat_bottom m c k q)
  unfold iblk
  exact read3 c _ t (Fin.natAdd 64 k) q

/-- What point `t` stores at entry `y` of its block is the layer's output at row `4000 t + y₀`, column `y₁`. -/
theorem point_at (c : Dev nD) (t : Fin cfg0.N) (y : S4000x64.Idx) (r : Fin 100000) (hr : r.val = t.val * 4000 + (y 0).val) :
    k0_pay1 (F := Ideal) (iblk m c 1 t) (iblk m c 0 t) (iblk m c 2 t) (iblk m c 3 t) y
      = result m c (ix2 r (⟨(y 1).val, (y 1).isLt⟩ : Fin 64)) := by
  obtain ⟨p, q, rfl⟩ : ∃ (p : Fin 4000) (q : Fin 64), y = ix2 p q := ⟨y 0, y 1, eq_ix2 y⟩
  exact Cert.Sage.Body.point_eq (iblk m c 1 t) (iblk m c 0 t) (iblk m c 2 t) (iblk m c 3 t)
    (Cert.Sage.Host.nsum (m ((c : Thread nD τ).loc main_arg0)) (m ((c : Thread nD τ).loc main_arg3)) (m ((c : Thread nD τ).loc main_arg4))) (m ((c : Thread nD τ).loc main_arg0)) (Cert.Sage.Host.degs (m ((c : Thread nD τ).loc main_arg4))) (m ((c : Thread nD τ).loc main_arg1)) (m ((c : Thread nD τ).loc main_arg2)) p q r q
    (fun k => blk_nsum m c t p k r hr) (fun k => blk_h m c t p k r hr) (blk_deg m c t p r hr)
    (fun k => blk_wtop m c t k q) (fun k => blk_wbot m c t k q)

/-- A 4000 × 64 block `K` whose entry `y` is the array `G` at row `4000 t + y₀`, column `y₁`, is band `t` of `G` as the
    output window reads it. Both are arbitrary here: only the window's geometry is used. -/
theorem band_of_points (c : Dev nD) (t : Fin cfg0.N) (K : Vec Ideal S4000x64 .f32)
    (G : Buf (Elt Ideal) ((c : Thread nD τ).loc main_v16))
    (h : ∀ (y : S4000x64.Idx) (r : Fin 100000), r.val = t.val * 4000 + (y 0).val →
      K y = (G : S100000x64.Idx → Ideal .f32) (ix2 r (⟨(y 1).val, (y 1).isLt⟩ : Fin 64))) :
    (cfg0.win 4).cut (grid0.coords t) K = ((cfg0.win 4).blk t).view.read (Elt Ideal) G := by
  funext j
  have ht : t.val < 25 := lt_of_lt_of_eq t.isLt N_0
  have hj0 : (j 0).val < 4000 := (j 0).isLt
  obtain ⟨-, -, -, -, -, -, -, -, e0, e1⟩ := idx_facts t
  show K ((win0 4).xinj (grid0.coords t) j) = _
  refine (h ((win0 4).xinj (grid0.coords t) j) ⟨t.val * 4000 + (j 0).val, by omega⟩ rfl).trans ?_
  rw [View.read_apply]
  refine congrArg (G : S100000x64.Idx → Ideal .f32) (funext fun a => Fin.ext ?_)
  match a with
  | ⟨0, _⟩ => show t.val * 4000 + (j 0).val = win0_4.index t (0 : Fin 2) * 4000 + 1 * (j 0).val; rw [e0]; omega
  | ⟨1, _⟩ => show (j 1).val = win0_4.index t (1 : Fin 2) * 64 + 1 * (j 1).val; rw [e1]; omega

/-- What point `t` writes back is band `t` of the layer's output. -/
theorem flushed_eq (c : Dev nD) (t : Fin cfg0.N) :
    (dats m 0 c).flushed 4 t = ((cfg0.win 4).blk t).view.read (Elt Ideal) (result m c) := by
  rw [Value.flushed4]
  unfold out0_4
  rw [View.canon_unit_zero hz]
  simp only [View.ld_unit_zero (S := S4000x64) hz, View.ld_unit_zero (S := S4000x1) hz, View.ld_unit_zero (S := S128x64) hz]
  exact band_of_points c t (k0_pay1 (F := Ideal) (iblk m c 1 t) (iblk m c 0 t) (iblk m c 2 t) (iblk m c 3 t)) (result m c)
    (fun y r hr => point_at m c t y r hr)

/-- An entry of the result array lies in point `t`'s block iff each coordinate lies in the block's range. -/
theorem mem_blk (t : Fin cfg0.N) (i : S100000x64.Idx) :
    i ∈ ((cfg0.win 4).blk t).view.set ↔ ∀ a : Fin 2, win0_4.index t a * S4000x64.size a ≤ (i a).val
      ∧ (i a).val < win0_4.index t a * S4000x64.size a + S4000x64.size a := by
  show i ∈ ((View.whole main_v16).slice (win0_4.rect t)).set ↔ _
  rw [View.set_slice_whole, Rect.mem_set_unit]
  exact Iff.rfl

/-- The 25 row bands tile the 100000 rows: row `r` lies in band `r / 4000`. -/
theorem cover (i : S100000x64.Idx) :
    ∃ t : Fin cfg0.N, (cfg0.win 4).flush t = true ∧ i ∈ ((cfg0.win 4).blk t).view.set := by
  have hi0 : (i 0).val < 100000 := (i 0).isLt
  have hi1 : (i 1).val < 64 := (i 1).isLt
  have hN : cfg0.N = 25 := N_0
  have hlt : (i 0).val / 4000 < cfg0.N := by rw [hN]; omega
  obtain ⟨-, -, -, -, -, -, -, -, e0, e1⟩ := idx_facts ⟨(i 0).val / 4000, hlt⟩
  refine ⟨⟨(i 0).val / 4000, hlt⟩, flush0_4 _, ?_⟩
  rw [mem_blk]
  intro a
  match a with
  | ⟨0, _⟩ =>
    show win0_4.index ⟨(i 0).val / 4000, hlt⟩ (0 : Fin 2) * 4000 ≤ (i 0).val
      ∧ (i 0).val < win0_4.index ⟨(i 0).val / 4000, hlt⟩ (0 : Fin 2) * 4000 + 4000
    rw [e0]
    show (i 0).val / 4000 * 4000 ≤ (i 0).val ∧ (i 0).val < (i 0).val / 4000 * 4000 + 4000
    omega
  | ⟨1, _⟩ =>
    show win0_4.index ⟨(i 0).val / 4000, hlt⟩ (1 : Fin 2) * 64 ≤ (i 1).val
      ∧ (i 1).val < win0_4.index ⟨(i 0).val / 4000, hlt⟩ (1 : Fin 2) * 64 + 64
    rw [e1]
    omega

/-- The result array ends holding the layer's output of the argument arrays. -/
theorem final (c : Dev nD) : (dats m 0 c).arrAt 4 cfg0.N = result m c :=
  (dats m 0 c).arrAt_eq_of_cover 4 (result m c) (fun t _ => flushed_eq m c t) cover

/-- The kernel program's run: the result at the layer's output, the arguments unchanged. -/
theorem run : θ_run defs (onTc (τ := τ) (main (F := Ideal))) ⟨m, fun _ => 0, ρ⟩ fun r => ∀ c : Dev nD,
      r.2.mem ((c : Thread nD τ).loc main_v16) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.Sage.Blocks

end
-- ==== Proof.RefSide.lean ====
/-
  The reference's result, entry by entry, is the layer function of `Spec`.

  The reference divides the scattered neighbour sum by the clamped degree (the degree vector clamped, cast to a
  column and spread over the 64 features), contracts the quotient with `W_neigh`, contracts `h` with `W_self`, and
  adds. Read at entry `(r, c)` that is the two sums over `k < 64` of `Spec`. The gather and the two scatter-adds
  that produce the neighbour sum and the degree are never opened: they enter as two arrays.
-/
import proofs.«133493_j51745765982698_1_alg».proof.Proof.Gen.ReferenceIdeal.Read
import proofs.«133493_j51745765982698_1_alg».proof.Proof.Spec

noncomputable section

namespace Cert.Sage.Ref

open Idealize.ShloMosaic Idealize.ShloMosaic.ValueIdx Cert.ReferenceIdeal Cert.ReferenceIdeal.Read

/-- The quotient stage at entry `(r, k)`: the neighbour sum there over the degree of row `r` clamped to at least
    one. The clamped degree is read through its two spreading steps back to the degree vector at `r`. -/
theorem quotient_at (x0 : (⟨S100000x64, .f32⟩ : BufTy).Contents (Elt Ideal))
    (x3 x4 : (⟨S1600000, .i32⟩ : BufTy).Contents (Elt Ideal)) (r : Fin 100000) (k : Fin 64) :
    val_main_v18 (F := Ideal) x0 x3 x4 (ix2 r k)
      = Ideal.div (val_main_v9 (F := Ideal) x0 x3 x4 (ix2 r k)) (max (val_main_v13 (F := Ideal) x4 (ix1 r)) Cert.Sage.one) := by
  have erow : idx_main_v16 (idx_main_v17 (ix2 r k : S100000x64.Idx)) = ix1 r := funext fun a => Fin.ext (by
    match a with
    | ⟨0, _⟩ => rfl)
  rw [val_main_v18_apply, val_main_v17_apply, val_main_v16_apply, erow, val_main_v15_apply, val_main_v14_apply,
    val_main_cst_3_apply, Ideal.hostDivf_def, Ideal.maximumf_def, Ideal.ofBits_def]

/-- The reference's last stage is `Sage.out` of the scattered neighbour sum, the scattered degree, `h` and the two
    weight matrices. -/
theorem result_eq (x0 : (⟨S100000x64, .f32⟩ : BufTy).Contents (Elt Ideal)) (x1 x2 : (⟨S64x64, .f32⟩ : BufTy).Contents (Elt Ideal))
    (x3 x4 : (⟨S1600000, .i32⟩ : BufTy).Contents (Elt Ideal)) :
    val_main_v21 (F := Ideal) x0 x1 x2 x3 x4
      = Cert.Sage.out (val_main_v9 (F := Ideal) x0 x3 x4) (val_main_v13 (F := Ideal) x4) x0 x1 x2 := by
  funext i
  obtain ⟨r, c, rfl⟩ : ∃ (r : Fin 100000) (c : Fin 64), i = ix2 r c := ⟨i 0, i 1, eq_ix2 i⟩
  rw [Cert.Sage.out_ix2]
  unfold Cert.Sage.outAt Cert.Sage.mean
  rw [val_main_v21_apply, val_main_v19_apply, val_main_v20_apply, Ideal.addf_def]
  refine congrArg₂ (· + ·) (Finset.sum_congr rfl fun k _ => ?_) (Finset.sum_congr rfl fun k _ => ?_)
  · have el : lidx_main_v19 (ix2 r c) k = ix2 r k := funext fun a => Fin.ext (by
      match a with
      | ⟨0, _⟩ => rfl
      | ⟨1, _⟩ => rfl)
    have er : ridx_main_v19 (ix2 r c) k = ix2 k c := funext fun a => Fin.ext (by
      match a with
      | ⟨0, _⟩ => rfl
      | ⟨1, _⟩ => rfl)
    rw [el, er, quotient_at]
  · have el : lidx_main_v20 (ix2 r c) k = ix2 r k := funext fun a => Fin.ext (by
      match a with
      | ⟨0, _⟩ => rfl
      | ⟨1, _⟩ => rfl)
    have er : ridx_main_v20 (ix2 r c) k = ix2 k c := funext fun a => Fin.ext (by
      match a with
      | ⟨0, _⟩ => rfl
      | ⟨1, _⟩ => rfl)
    rw [el, er]

end Cert.Sage.Ref

end
-- ==== Proof.Same.lean ====
/-
  The two programs form the neighbour sums and the degrees by the same host operations.

  Each printed program carries its own copy of the gather's and the scatters' dimension records and of the shapes;
  the copies have the same fields. So the kernel side's neighbour sums and degrees are, term for term, the
  reference's two scatter stages of the same argument arrays. The gather and the scatter-adds themselves are compared
  argument by argument and never opened.
-/
import proofs.«133493_j51745765982698_1_alg».proof.Proof.HostSide
import proofs.«133493_j51745765982698_1_alg».proof.Proof.Gen.ReferenceIdeal.Read

noncomputable section

namespace Cert.Sage.Same

open Idealize.ShloMosaic

set_option maxHeartbeats 40000 in
/-- The kernel program's neighbour sums are the reference's scatter stage of the same arrays. -/
theorem nsum_eq (x0 : (⟨Cert.KernelIdeal.S100000x64, .f32⟩ : BufTy).Contents (Elt Ideal))
    (x3 x4 : (⟨Cert.KernelIdeal.S1600000, .i32⟩ : BufTy).Contents (Elt Ideal)) :
    Cert.Sage.Host.nsum x0 x3 x4 = Cert.ReferenceIdeal.Read.val_main_v9 (F := Ideal) x0 x3 x4 := by
  unfold Cert.Sage.Host.nsum Cert.ReferenceIdeal.Read.val_main_v9 Cert.ReferenceIdeal.Read.val_main_v8
    Cert.ReferenceIdeal.Read.val_main_v7 Cert.ReferenceIdeal.Read.val_main_v6 Cert.ReferenceIdeal.Read.val_main_v5
    Cert.ReferenceIdeal.Read.val_main_v4 Cert.ReferenceIdeal.Read.val_main_v3 Cert.ReferenceIdeal.Read.val_main_v2
    Cert.ReferenceIdeal.Read.val_main_v1 Cert.ReferenceIdeal.Read.val_main_v0 Cert.ReferenceIdeal.Read.val_main_c
    Cert.ReferenceIdeal.Read.val_main_c_0 Cert.ReferenceIdeal.Read.val_main_cst
  rfl

set_option maxHeartbeats 40000 in
/-- The kernel program's degrees are the reference's scatter stage of the same destinations. -/
theorem degs_eq (x4 : (⟨Cert.KernelIdeal.S1600000, .i32⟩ : BufTy).Contents (Elt Ideal)) :
    Cert.Sage.Host.degs x4 = Cert.ReferenceIdeal.Read.val_main_v13 (F := Ideal) x4 := by
  unfold Cert.Sage.Host.degs Cert.ReferenceIdeal.Read.val_main_v13 Cert.ReferenceIdeal.Read.val_main_v12
    Cert.ReferenceIdeal.Read.val_main_v11 Cert.ReferenceIdeal.Read.val_main_v10 Cert.ReferenceIdeal.Read.val_main_cst_1
    Cert.ReferenceIdeal.Read.val_main_cst_2
  rfl

end Cert.Sage.Same

end
-- ==== Proof.lean ====
/-
  One GraphSAGE layer with mean aggregation: the tiled kernel program against the plain reference.

  Both programs form on the host, by the same gather and scatter-adds, the sum `ns` of every node's in-neighbours'
  features and its in-degree `dg`. The reference then computes `(ns / max dg 1) · W_neigh + h · W_self`, two
  contractions over the 64 features. The kernel program stacks `W_neigh` above `W_self`, and for each band of 4000
  nodes lays `ns / max dg 1` and `h` side by side and multiplies once, a contraction over 128 stacked features.
  A sum over 128 terms split at 64 is the sum of its two halves, in any commutative monoid, so on the extended reals
  the two results agree entry by entry with no condition on the inputs: the precondition is never used. Rounding the
  matmul's operands to bf16 is the identity on the extended reals, and the idealization rewrote nothing, so
  `preserves` is trivial.

  The modules: `Spec` (the layer function), `Payload` (the body's stored block entry by entry), `HostSide` (what the
  region finds in the host-written operands), `Blocks` (from the 25 bands to the whole array, and the kernel
  program's run), `RefSide` (the reference's last stage is the layer function), `Same` (the two programs' host
  prefixes are one term), and the two general lemma files `LibColumn` and `LibStack`.
-/
import proofs.«133493_j51745765982698_1_alg».proof.Defs
import proofs.«133493_j51745765982698_1_alg».proof.Proof.Gen.Kernel
import proofs.«133493_j51745765982698_1_alg».proof.Proof.Gen.Kernel.Skeleton
import proofs.«133493_j51745765982698_1_alg».proof.Proof.Gen.Kernel.Launch
import proofs.«133493_j51745765982698_1_alg».proof.Proof.Gen.Kernel.Points
import proofs.«133493_j51745765982698_1_alg».proof.Proof.Gen.Kernel.Frame
import proofs.«133493_j51745765982698_1_alg».proof.Proof.Gen.KernelIdeal
import proofs.«133493_j51745765982698_1_alg».proof.Proof.Gen.KernelIdeal.Skeleton
import proofs.«133493_j51745765982698_1_alg».proof.Proof.Gen.KernelIdeal.Launch
import proofs.«133493_j51745765982698_1_alg».proof.Proof.Gen.KernelIdeal.Points
import proofs.«133493_j51745765982698_1_alg».proof.Proof.Gen.KernelIdeal.Frame
import proofs.«133493_j51745765982698_1_alg».proof.Proof.Gen.ReferenceIdeal
import proofs.«133493_j51745765982698_1_alg».proof.Proof.Gen.Pre_finite_inputs
import proofs.«133493_j51745765982698_1_alg».proof.Proof.Gen.KernelIdeal.Value
import proofs.«133493_j51745765982698_1_alg».proof.Proof.Gen.ReferenceIdeal.Run
import proofs.«133493_j51745765982698_1_alg».proof.Proof.Gen.ReferenceIdeal.Read
import proofs.«133493_j51745765982698_1_alg».proof.Proof.Blocks
import proofs.«133493_j51745765982698_1_alg».proof.Proof.RefSide
import proofs.«133493_j51745765982698_1_alg».proof.Proof.Same
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs, from memories agreeing on the arguments, end with the layer's output of those arguments: the
    kernel program band by band (`Blocks.run`), the reference by reading its last stage (`Ref.result_eq`), the
    shared neighbour sums and degrees being one term on both sides (`Same`). -/
theorem algebraic : Cert.algebraic_KernelIdeal_ReferenceIdeal := by
  intro m ρ m' ρ' _ hagree
  refine ⟨fun c => Cert.Sage.Blocks.result m c, Cert.Sage.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.Sage.Ref.result_eq, (hagree c).1, (hagree c).2.1, (hagree c).2.2.1,
    (hagree c).2.2.2.1, (hagree c).2.2.2.2, ← Cert.Sage.Same.nsum_eq, ← Cert.Sage.Same.degs_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
